-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S8x8192x2048 : Shape := ⟨3, ![8, 8192, 2048]⟩
abbrev S8x8192 : Shape := ⟨2, ![8, 8192]⟩
abbrev S8x2048x8192 : Shape := ⟨3, ![8, 2048, 8192]⟩
abbrev S8x2048 : Shape := ⟨2, ![8, 2048]⟩
abbrev S8 : Shape := ⟨1, ![8]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S8x8192x2048 : S_.BroadcastsInDim S8x8192x2048 (![] : Fin 0 → Fin S8x8192x2048.rank)
  reducesTo_S8x8192x2048_S_d0_1_2 : S8x8192x2048.ReducesTo [0, 1, 2] S_
  bcast_S_S8x8192 : S_.BroadcastsInDim S8x8192 (![] : Fin 0 → Fin S8x8192.rank)
  reducesTo_S8x8192_S_d0_1 : S8x8192.ReducesTo [0, 1] S_
  bcast_S_S8x2048x8192 : S_.BroadcastsInDim S8x2048x8192 (![] : Fin 0 → Fin S8x2048x8192.rank)
  reducesTo_S8x2048x8192_S_d0_1_2 : S8x2048x8192.ReducesTo [0, 1, 2] S_
  bcast_S_S8x2048 : S_.BroadcastsInDim S8x2048 (![] : Fin 0 → Fin S8x2048.rank)
  reducesTo_S8x2048_S_d0_1 : S8x2048.ReducesTo [0, 1] S_

variable [Facts]

def fn_part1 {F : FTy → Type} [FloatOps F] (main_arg4 : FVec F S8x2048 .f32) (main_v13 : IVec S_ 1) (main_v16 : IVec S8x2048x8192 1) : IVec S_ 1 :=
  let main_c_5 : IVec S_ 1 := constantI S_ 1 1#1
  let main_v17 : IVec S_ 1 := (fun x v => Host.reduce IntOp.andi x v reducesTo_S8x2048x8192_S_d0_1_2 h_S_) main_v16 main_c_5
  let main_v18 : IVec S_ 1 := andi main_v13 main_v17
  let main_v19 : FVec F S8x2048 .f32 := Host.absf main_arg4
  let main_cst_6 : FVec F S_ .f32 := constant S_ .f32 0x7F800000#32
  let main_v20 : FVec F S8x2048 .f32 := broadcastInDim S8x2048 ![] bcast_S_S8x2048 main_cst_6
  let main_v21 : IVec S8x2048 1 := cmpf .olt main_v19 main_v20
  let main_c_7 : IVec S_ 1 := constantI S_ 1 1#1
  let main_v22 : IVec S_ 1 := (fun x v => Host.reduce IntOp.andi x v reducesTo_S8x2048_S_d0_1 h_S_) main_v21 main_c_7
  let main_v23 : IVec S_ 1 := andi main_v18 main_v22
  main_v23

def fn {F : FTy → Type} [FloatOps F] (main_arg0 : FVec F S16384x2048 .f32) (main_arg1 : FVec F S8x8192x2048 .f32) (main_arg2 : FVec F S8x8192 .f32) (main_arg3 : FVec F S8x2048x8192 .f32) (main_arg4 : FVec F S8x2048 .f32) (main_arg5 : IVec S8 32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S8x8192x2048 .f32 := Host.absf main_arg1
  let main_cst_0 : FVec F S_ .f32 := constant S_ .f32 0x7F800000#32
  let main_v5 : FVec F S8x8192x2048 .f32 := broadcastInDim S8x8192x2048 ![] bcast_S_S8x8192x2048 main_cst_0
  let main_v6 : IVec S8x8192x2048 1 := cmpf .olt main_v4 main_v5
  let main_c_1 : IVec S_ 1 := constantI S_ 1 1#1
  let main_v7 : IVec S_ 1 := (fun x v => Host.reduce IntOp.andi x v reducesTo_S8x8192x2048_S_d0_1_2 h_S_) main_v6 main_c_1
  let main_v8 : IVec S_ 1 := andi main_v3 main_v7
  let main_v9 : FVec F S8x8192 .f32 := Host.absf main_arg2
  let main_cst_2 : FVec F S_ .f32 := constant S_ .f32 0x7F800000#32
  let main_v10 : FVec F S8x8192 .f32 := broadcastInDim S8x8192 ![] bcast_S_S8x8192 main_cst_2
  let main_v11 : IVec S8x8192 1 := cmpf .olt main_v9 main_v10
  let main_c_3 : IVec S_ 1 := constantI S_ 1 1#1
  let main_v12 : IVec S_ 1 := (fun x v => Host.reduce IntOp.andi x v reducesTo_S8x8192_S_d0_1 h_S_) main_v11 main_c_3
  let main_v13 : IVec S_ 1 := andi main_v8 main_v12
  let main_v14 : FVec F S8x2048x8192 .f32 := Host.absf main_arg3
  let main_cst_4 : FVec F S_ .f32 := constant S_ .f32 0x7F800000#32
  let main_v15 : FVec F S8x2048x8192 .f32 := broadcastInDim S8x2048x8192 ![] bcast_S_S8x2048x8192 main_cst_4
  let main_v16 : IVec S8x2048x8192 1 := cmpf .olt main_v14 main_v15
  fn_part1 (F := F) main_arg4 main_v13 main_v16
-- ==== Kernel.lean ====
abbrev S16384x2048 : Shape := ⟨2, ![16384, 2048]⟩
abbrev S8x8192x2048 : Shape := ⟨3, ![8, 8192, 2048]⟩
abbrev S8x8192 : Shape := ⟨2, ![8, 8192]⟩
abbrev S8x2048x8192 : Shape := ⟨3, ![8, 2048, 8192]⟩
abbrev S8x2048 : Shape := ⟨2, ![8, 2048]⟩
abbrev S8 : Shape := ⟨1, ![8]⟩
abbrev S8x2048x2048 : Shape := ⟨3, ![8, 2048, 2048]⟩
abbrev S8x1x8192 : Shape := ⟨3, ![8, 1, 8192]⟩
abbrev S8x1x2048 : Shape := ⟨3, ![8, 1, 2048]⟩
abbrev S1x1024x2048 : Shape := ⟨3, ![1, 1024, 2048]⟩
abbrev S1x512x2048 : Shape := ⟨3, ![1, 512, 2048]⟩
abbrev S1x1x512 : Shape := ⟨3, ![1, 1, 512]⟩
abbrev S1x2048x512 : Shape := ⟨3, ![1, 2048, 512]⟩
abbrev S1x1x2048 : Shape := ⟨3, ![1, 1, 2048]⟩
abbrev S1024x2048 : Shape := ⟨2, ![1024, 2048]⟩
abbrev S512x2048 : Shape := ⟨2, ![512, 2048]⟩
abbrev S1024x512 : Shape := ⟨2, ![1024, 512]⟩
abbrev S1x512 : Shape := ⟨2, ![1, 512]⟩
abbrev S2048x512 : Shape := ⟨2, ![2048, 512]⟩
abbrev S1x2048 : Shape := ⟨2, ![1, 2048]⟩

abbrev nBuf : Space → Nat
  | .hbm => 11
  | .vmem => 13
  | .smem => 0
  | _ => 0

abbrev bufTy : (tb : Table) → Fin (tcTables nBuf tb) → BufTy
  | .hbm, ⟨0, _⟩ => ⟨S16384x2048, .f32⟩
  | .hbm, ⟨1, _⟩ => ⟨S8x8192x2048, .f32⟩
  | .hbm, ⟨2, _⟩ => ⟨S8x8192, .f32⟩
  | .hbm, ⟨3, _⟩ => ⟨S8x2048x8192, .f32⟩
  | .hbm, ⟨4, _⟩ => ⟨S8x2048, .f32⟩
  | .hbm, ⟨5, _⟩ => ⟨S8, .i32⟩
  | .hbm, ⟨6, _⟩ => ⟨S8x2048x2048, .f32⟩
  | .hbm, ⟨7, _⟩ => ⟨S8x1x8192, .f32⟩
  | .hbm, ⟨8, _⟩ => ⟨S8x1x2048, .f32⟩
  | .hbm, ⟨9, _⟩ => ⟨S8x2048x2048, .f32⟩
  | .hbm, ⟨10, _⟩ => ⟨S16384x2048, .f32⟩
  | .local _ .vmem, ⟨0, _⟩ => ⟨S1x1024x2048, .f32⟩
  | .local _ .vmem, ⟨1, _⟩ => ⟨S1x1024x2048, .f32⟩
  | .local _ .vmem, ⟨2, _⟩ => ⟨S1x512x2048, .f32⟩
  | .local _ .vmem, ⟨3, _⟩ => ⟨S1x512x2048, .f32⟩
  | .local _ .vmem, ⟨4, _⟩ => ⟨S1x1x512, .f32⟩
  | .local _ .vmem, ⟨5, _⟩ => ⟨S1x1x512, .f32⟩
  | .local _ .vmem, ⟨6, _⟩ => ⟨S1x2048x512, .f32⟩
  | .local _ .vmem, ⟨7, _⟩ => ⟨S1x2048x512, .f32⟩
  | .local _ .vmem, ⟨8, _⟩ => ⟨S1x1x2048, .f32⟩
  | .local _ .vmem, ⟨9, _⟩ => ⟨S1x1x2048, .f32⟩
  | .local _ .vmem, ⟨10, _⟩ => ⟨S1x1024x2048, .f32⟩
  | .local _ .vmem, ⟨11, _⟩ => ⟨S1x1024x2048, .f32⟩
  | .local _ .vmem, ⟨12, _⟩ => ⟨S1024x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 2, 16], ![false, false, false]⟩

def k0_cond2 (i : grid0.Coords) : BitVec 1 :=
  let arg2 : BitVec 32 := BitVec.ofNat 32 (i 2).val
  let c15_i32 : BitVec 32 := 15#32
  let v37 : BitVec 1 := Scalar.cmpi .eq arg2 c15_i32
  let v38 : BitVec 32 := Scalar.extui v37
  let c0_i32_21 : BitVec 32 := 0#32
  let v39 : BitVec 1 := Scalar.cmpi .ne v38 c0_i32_21
  v39

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S16384x2048_S8x2048x2048 : S16384x2048.ShapeCasts S8x2048x2048
  shapeCasts_S8x8192_S8x1x8192 : S8x8192.ShapeCasts S8x1x8192
  shapeCasts_S8x2048_S8x1x2048 : S8x2048.ShapeCasts S8x1x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  bitsLt_bf16_f32 : FTy.bits .bf16 < FTy.bits .f32
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  broadcasts_S1x512_S1024x512 : S1x512.Broadcasts S1024x512
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  broadcasts_S1x2048_S1024x2048 : S1x2048.Broadcasts S1024x2048
  shapeCasts_S1024x2048_S1x1024x2048 : S1024x2048.ShapeCasts S1x1024x2048
  shapeCasts_S8x2048x2048_S16384x2048 : S8x2048x2048.ShapeCasts S16384x2048
  dot_S1024x2048_S512x2048_S1024x512_1_1_0_0_n_n_wf : DotDims.WF S1024x2048 S512x2048 S1024x512 [1] [1] [0] [0] [] []
  dot_S1024x512_S2048x512_S1024x2048_1_1_0_0_n_n_wf : DotDims.WF S1024x512 S2048x512 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x2048.size a ≤ S8x2048x2048.size a
  hwx0_0 : ∀ i : grid0.Coords, EltTy.bits .f32 = 32 ∨ (Rect.block (s := S8x2048x2048) S1x1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x2048.size a ≤ S8x8192x2048.size a
  hwx0_1 : ∀ i : grid0.Coords, EltTy.bits .f32 = 32 ∨ (Rect.block (s := S8x8192x2048) S1x512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S8x1x8192.size a
  hwx0_2 : ∀ i : grid0.Coords, EltTy.bits .f32 = 32 ∨ (Rect.block (s := S8x1x8192) S1x1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x512.size a ≤ S8x2048x8192.size a
  hwx0_3 : ∀ i : grid0.Coords, EltTy.bits .f32 = 32 ∨ (Rect.block (s := S8x2048x8192) S1x2048x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x2048.size a ≤ S8x1x2048.size a
  hwx0_4 : ∀ i : grid0.Coords, EltTy.bits .f32 = 32 ∨ (Rect.block (s := S8x1x2048) S1x1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x2048.size a ≤ S8x2048x2048.size a
  hwx0_5 : ∀ i : grid0.Coords, EltTy.bits .f32 = 32 ∨ (Rect.block (s := S8x2048x2048) S1x1024x2048.size (cc0_transform_5 i) (hinb0_5 i)).WholeWords (EltTy.packing .f32)

variable [Facts₀]

def dot_S1024x2048_S512x2048_S1024x512_1_1_0_0_n_n : DotDims S1024x2048 S512x2048 S1024x512 where
  lhsContracting := [1]
  rhsContracting := [1]
  lhsNonContracting := [0]
  rhsNonContracting := [0]
  lhsBatch := []
  rhsBatch := []
  wf := dot_S1024x2048_S512x2048_S1024x512_1_1_0_0_n_n_wf
def dot_S1024x512_S2048x512_S1024x2048_1_1_0_0_n_n : DotDims S1024x512 S2048x512 S1024x2048 where
  lhsContracting := [1]
  rhsContracting := [1]
  lhsNonContracting := [0]
  rhsNonContracting := [0]
  lhsBatch := []
  rhsBatch := []
  wf := dot_S1024x512_S2048x512_S1024x2048_1_1_0_0_n_n_wf

abbrev win0_0 : Pipeline.Window sig grid0 :=
  Pipeline.Window.ofSpec (Memref.whole main_v0) S1x1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x2048x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x1024x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S16384x2048 : Shape := ⟨2, ![16384, 2048]⟩
abbrev S8x8192x2048 : Shape := ⟨3, ![8, 8192, 2048]⟩
abbrev S8x8192 : Shape := ⟨2, ![8, 8192]⟩
abbrev S8x2048x8192 : Shape := ⟨3, ![8, 2048, 8192]⟩
abbrev S8x2048 : Shape := ⟨2, ![8, 2048]⟩
abbrev S8 : Shape := ⟨1, ![8]⟩
abbrev S8x2048x2048 : Shape := ⟨3, ![8, 2048, 2048]⟩
abbrev S8x1x8192 : Shape := ⟨3, ![8, 1, 8192]⟩
abbrev S_ : Shape := ⟨0, ![]⟩
abbrev S8x1x2048 : Shape := ⟨3, ![8, 1, 2048]⟩

abbrev nBuf : Space → Nat
  | .hbm => 33
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S8x8192x2048, .f32⟩
  | .hbm, ⟨2, _⟩ => ⟨S8x8192, .f32⟩
  | .hbm, ⟨3, _⟩ => ⟨S8x2048x8192, .f32⟩
  | .hbm, ⟨4, _⟩ => ⟨S8x2048, .f32⟩
  | .hbm, ⟨5, _⟩ => ⟨S8, .i32⟩
  | .hbm, ⟨6, _⟩ => ⟨S8x2048x2048, .f32⟩
  | .hbm, ⟨7, _⟩ => ⟨S8x2048x8192, .f32⟩
  | .hbm, ⟨8, _⟩ => ⟨S8x1x8192, .f32⟩
  | .hbm, ⟨9, _⟩ => ⟨S8x2048x8192, .f32⟩
  | .hbm, ⟨10, _⟩ => ⟨S8x2048x8192, .f32⟩
  | .hbm, ⟨11, _⟩ => ⟨S8x2048x8192, .f32⟩
  | .hbm, ⟨12, _⟩ => ⟨S8x2048x8192, .f32⟩
  | .hbm, ⟨13, _⟩ => ⟨S_, .f32⟩
  | .hbm, ⟨14, _⟩ => ⟨S8x2048x8192, .f32⟩
  | .hbm, ⟨15, _⟩ => ⟨S8x2048x8192, .f32⟩
  | .hbm, ⟨16, _⟩ => ⟨S8x2048x8192, .f32⟩
  | .hbm, ⟨17, _⟩ => ⟨S_, .f32⟩
  | .hbm, ⟨18, _⟩ => ⟨S8x2048x8192, .f32⟩
  | .hbm, ⟨19, _⟩ => ⟨S8x2048x8192, .f32⟩
  | .hbm, ⟨20, _⟩ => ⟨S8x2048x8192, .f32⟩
  | .hbm, ⟨21, _⟩ => ⟨S_, .f32⟩
  | .hbm, ⟨22, _⟩ => ⟨S8x2048x8192, .f32⟩
  | .hbm, ⟨23, _⟩ => ⟨S8x2048x8192, .f32⟩
  | .hbm, ⟨24, _⟩ => ⟨S_, .f32⟩
  | .hbm, ⟨25, _⟩ => ⟨S8x2048x8192, .f32⟩
  | .hbm, ⟨26, _⟩ => ⟨S8x2048x8192, .f32⟩
  | .hbm, ⟨27, _⟩ => ⟨S8x2048x8192, .f32⟩
  | .hbm, ⟨28, _⟩ => ⟨S8x2048x2048, .f32⟩
  | .hbm, ⟨29, _⟩ => ⟨S8x1x2048, .f32⟩
  | .hbm, ⟨30, _⟩ => ⟨S8x2048x2048, .f32⟩
  | .hbm, ⟨31, _⟩ => ⟨S8x2048x2048, .f32⟩
  | .hbm, ⟨32, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]

class Facts₀ : Prop where
  shapeCasts_S16384x2048_S8x2048x2048 : S16384x2048.ShapeCasts S8x2048x2048
  bcast_S8x8192_S8x1x8192_0_2 : S8x8192.BroadcastsInDim S8x1x8192 (![0, 2] : Fin 2 → Fin S8x1x8192.rank)
  bcast_S8x1x8192_S8x2048x8192_0_1_2 : S8x1x8192.BroadcastsInDim S8x2048x8192 (![0, 1, 2] : Fin 3 → Fin S8x2048x8192.rank)
  bcast_S_S8x2048x8192 : S_.BroadcastsInDim S8x2048x8192 (![] : Fin 0 → Fin S8x2048x8192.rank)
  bcast_S8x2048_S8x1x2048_0_2 : S8x2048.BroadcastsInDim S8x1x2048 (![0, 2] : Fin 2 → Fin S8x1x2048.rank)
  bcast_S8x1x2048_S8x2048x2048_0_1_2 : S8x1x2048.BroadcastsInDim S8x2048x2048 (![0, 1, 2] : Fin 3 → Fin S8x2048x2048.rank)
  shapeCasts_S8x2048x2048_S16384x2048 : S8x2048x2048.ShapeCasts S16384x2048
  dot_S8x2048x2048_S8x8192x2048_S8x2048x8192_2_2_1_1_0_0_wf : DotDims.WF S8x2048x2048 S8x8192x2048 S8x2048x8192 [2] [2] [1] [1] [0] [0]
  dot_S8x2048x8192_S8x2048x8192_S8x2048x2048_2_2_1_1_0_0_wf : DotDims.WF S8x2048x8192 S8x2048x8192 S8x2048x2048 [2] [2] [1] [1] [0] [0]

variable [Facts₀]

def dot_S8x2048x2048_S8x8192x2048_S8x2048x8192_2_2_1_1_0_0 : DotDims S8x2048x2048 S8x8192x2048 S8x2048x8192 where
  lhsContracting := [2]
  rhsContracting := [2]
  lhsNonContracting := [1]
  rhsNonContracting := [1]
  lhsBatch := [0]
  rhsBatch := [0]
  wf := dot_S8x2048x2048_S8x8192x2048_S8x2048x8192_2_2_1_1_0_0_wf
def dot_S8x2048x8192_S8x2048x8192_S8x2048x2048_2_2_1_1_0_0 : DotDims S8x2048x8192 S8x2048x8192 S8x2048x2048 where
  lhsContracting := [2]
  rhsContracting := [2]
  lhsNonContracting := [1]
  rhsNonContracting := [1]
  lhsBatch := [0]
  rhsBatch := [0]
  wf := dot_S8x2048x8192_S8x2048x8192_S8x2048x2048_2_2_1_1_0_0_wf

class Facts : Prop extends Facts₀ where

variable [Facts]
-- ==== Proof.Spec.lean ====
/-
  The function both programs compute, over the extended reals.

  An expert feed-forward layer, for each of 8 experts `e`, 2048 tokens `t` and 2048 output features `d`:

      y[e,t,d] = (∑ h < 8192, gelu (∑ k < 2048, x[e,t,k] · w1[e,h,k] + b1[e,h]) · w2[e,d,h]) + b2[e,d]

  with `gelu u = u · (½ · (1 + tanh (c₂ · (u + c₁ · u³))))`, the tanh form, its four constants kept as the
  binary words the programs spell (the same words on both sides, so they are never evaluated).

  One program forms the hidden sum over all 8192 units at once; the other walks the hidden axis in 16 tiles
  of 512 units, adding each tile's contribution to a running total that starts at zero. Addition of extended
  reals is commutative and associative, so the running total after the last tile is the whole sum
  (`partialSum_last`): no entry needs to be finite for this.
-/
import Idealize.ShloMosaic.PureOps.Ideal
import Idealize.ShloMosaic.Lib.ValueIdx

noncomputable section

namespace Cert.FFN

open Idealize.ShloMosaic Idealize.ShloMosaic.ValueIdx

/-- The tanh form of GELU, `u · (½ · (1 + tanh (c₂ · (u + c₁ · (u · (u · u))))))`, the cube associated to the right. -/
def gelu (u : EReal) : EReal :=
  u * (Ideal.ofBits .f32 0x3F000000#32 * (Ideal.ofBits .f32 0x3F800000#32
    + Ideal.tanh (Ideal.ofBits .f32 0x3F4C422A#32 * (u + Ideal.ofBits .f32 0x3D372713#32 * (u * (u * u))))))

/-- The same with the cube associated to the left, `(u · u) · u`: multiplication of extended reals commutes. -/
theorem gelu_cube_left (u : EReal) :
    u * (Ideal.ofBits .f32 0x3F000000#32 * (Ideal.ofBits .f32 0x3F800000#32
      + Ideal.tanh (Ideal.ofBits .f32 0x3F4C422A#32 * (u + Ideal.ofBits .f32 0x3D372713#32 * ((u * u) * u))))) = gelu u := by
  unfold gelu; rw [mul_comm (u * u) u]

/-- The shapes of the five arrays: tokens by expert, the two weight tensors, the two biases. -/
abbrev SX : Shape := ⟨3, ![8, 2048, 2048]⟩
abbrev SW1 : Shape := ⟨3, ![8, 8192, 2048]⟩
abbrev SB1 : Shape := ⟨2, ![8, 8192]⟩
abbrev SW2 : Shape := ⟨3, ![8, 2048, 8192]⟩
abbrev SB2 : Shape := ⟨2, ![8, 2048]⟩

section
variable (X : SX.Idx → EReal) (W1 : SW1.Idx → EReal) (B1 : SB1.Idx → EReal) (W2 : SW2.Idx → EReal) (B2 : SB2.Idx → EReal)

/-- Hidden unit `h` of token `t` of expert `e`, after the activation. -/
def hid (e : Fin 8) (t : Fin 2048) (h : Fin 8192) : EReal :=
  gelu ((∑ k : Fin 2048, X (ix3 e t k) * W1 (ix3 e h k)) + B1 (ix2 e h))

/-- Hidden unit `h`'s contribution to output feature `d`. -/
def term (e : Fin 8) (t d : Fin 2048) (h : Fin 8192) : EReal := hid X W1 B1 e t h * W2 (ix3 e d h)

/-- Output feature `d` of token `t` of expert `e`. -/
def out (e : Fin 8) (t d : Fin 2048) : EReal := (∑ h : Fin 8192, term X W1 B1 W2 e t d h) + B2 (ix2 e d)

/-- The whole result, as an array over (expert, token, feature). -/
def outArr : SX.Idx → EReal := fun i =>
  out X W1 B1 W2 B2 ⟨(i 0).val, (i 0).isLt⟩ ⟨(i 1).val, (i 1).isLt⟩ ⟨(i 2).val, (i 2).isLt⟩

/-! ## The hidden axis in 16 tiles of 512 -/

/-- Hidden unit `j` of tile `q`. -/
def hcol (q : Fin 16) (j : Fin 512) : Fin 8192 :=
  ⟨512 * q.val + j.val, by have := q.isLt; have := j.isLt; omega⟩

/-- A sum over the 8192 hidden units is the sum over the tiles of the sums within each tile. -/
theorem sum_split {M : Type*} [AddCommMonoid M] (f : Fin 8192 → M) :
    ∑ h : Fin 8192, f h = ∑ q : Fin 16, ∑ j : Fin 512, f (hcol q j) := by
  rw [← Equiv.sum_comp (finProdFinEquiv (m := 16) (n := 512)) (f : Fin (16 * 512) → M), Fintype.sum_prod_type]
  refine Finset.sum_congr rfl fun q _ => Finset.sum_congr rfl fun j _ => congrArg f (Fin.ext ?_)
  simp only [finProdFinEquiv_apply_val, hcol]
  omega

/-- Tile `q`'s contribution to an output entry. -/
def tile (e : Fin 8) (t d : Fin 2048) (q : Fin 16) : EReal := ∑ j : Fin 512, term X W1 B1 W2 e t d (hcol q j)

/-- The same with the tile a natural number (zero past the last tile, which is never reached). -/
def tileN (e : Fin 8) (t d : Fin 2048) (s : ℕ) : EReal :=
  if h : s < 16 then tile X W1 B1 W2 e t d ⟨s, h⟩ else 0

/-- The running total after tiles `0 … n`. -/
def partialSum (e : Fin 8) (t d : Fin 2048) (n : ℕ) : EReal :=
  ∑ s ∈ Finset.range (n + 1), tileN X W1 B1 W2 e t d s

theorem partialSum_zero (e : Fin 8) (t d : Fin 2048) :
    partialSum X W1 B1 W2 e t d 0 = tileN X W1 B1 W2 e t d 0 := Finset.sum_range_one _

theorem partialSum_succ (e : Fin 8) (t d : Fin 2048) (n : ℕ) :
    partialSum X W1 B1 W2 e t d (n + 1) = partialSum X W1 B1 W2 e t d n + tileN X W1 B1 W2 e t d (n + 1) :=
  Finset.sum_range_succ _ _

/-- After the last tile the running total is the sum over every hidden unit. -/
theorem partialSum_last (e : Fin 8) (t d : Fin 2048) :
    partialSum X W1 B1 W2 e t d 15 = ∑ h : Fin 8192, term X W1 B1 W2 e t d h := by
  unfold partialSum
  rw [Finset.sum_range, sum_split]
  refine Finset.sum_congr rfl fun q _ => ?_
  unfold tileN
  rw [dif_pos q.isLt]
  rfl

end

end Cert.FFN

end
-- ==== Proof.RefValue.lean ====
/-
  The reference, read index by index: before its final reshape the host program holds, at (expert, token,
  feature), the expert layer's output entry of `Spec.lean` — the two matrix products as plain sums over the
  contracted axis, the biases broadcast along the token axis, the activation's cube associated to the left.
-/
import proofs.«117410_j30734785970328_2_alg».proof.Defs
import proofs.«117410_j30734785970328_2_alg».proof.Proof.Gen.ReferenceIdeal.Read
import proofs.«117410_j30734785970328_2_alg».proof.Proof.Spec

noncomputable section

namespace Cert.ReferenceIdeal.RefValue

open Cert.ReferenceIdeal Cert.ReferenceIdeal.Gen Cert.ReferenceIdeal.Read
open Idealize.ShloMosaic Idealize.ShloMosaic.ValueIdx

/-- The pre-activation stage at (e, t, h): the token's row against hidden unit `h`'s weights, plus its bias. -/
theorem pre_apply (x0 : (⟨S16384x2048, .f32⟩ : BufTy).Contents (Elt Ideal)) (x1 : (⟨S8x8192x2048, .f32⟩ : BufTy).Contents (Elt Ideal))
    (x2 : (⟨S8x8192, .f32⟩ : BufTy).Contents (Elt Ideal)) (e : Fin 8) (t : Fin 2048) (h : Fin 8192) :
    val_main_v4 (F := Ideal) x0 x1 x2 (ix3 e t h)
      = (∑ k : Fin 2048, val_main_v0 (F := Ideal) x0 (ix3 e t k) * x1 (ix3 e h k)) + x2 (ix2 e h) := by
  rw [val_main_v4_apply, val_main_v1_apply, val_main_v3_apply, val_main_v2_apply]
  have el : ∀ k : Fin 2048, lidx_main_v1 (ix3 e t h) k = ix3 e t k := fun k => funext fun a => Fin.ext (by
    match a with | ⟨0, _⟩ => rfl | ⟨1, _⟩ => rfl | ⟨2, _⟩ => rfl)
  have er : ∀ k : Fin 2048, ridx_main_v1 (ix3 e t h) k = ix3 e h k := fun k => funext fun a => Fin.ext (by
    match a with | ⟨0, _⟩ => rfl | ⟨1, _⟩ => rfl | ⟨2, _⟩ => rfl)
  have eb : idx_main_v2 (idx_main_v3 (ix3 e t h)) = ix2 e h := funext fun a => Fin.ext (by
    match a with | ⟨0, _⟩ => rfl | ⟨1, _⟩ => rfl)
  simp only [el, er, eb]
  rfl

/-- The activated stage at (e, t, h) is the specification's hidden unit. -/
theorem hid_apply (x0 : (⟨S16384x2048, .f32⟩ : BufTy).Contents (Elt Ideal)) (x1 : (⟨S8x8192x2048, .f32⟩ : BufTy).Contents (Elt Ideal))
    (x2 : (⟨S8x8192, .f32⟩ : BufTy).Contents (Elt Ideal)) (e : Fin 8) (t : Fin 2048) (h : Fin 8192) :
    val_main_v17 (F := Ideal) x0 x1 x2 (ix3 e t h) = Cert.FFN.hid (val_main_v0 (F := Ideal) x0) x1 x2 e t h := by
  unfold Cert.FFN.hid
  rw [← pre_apply, ← Cert.FFN.gelu_cube_left]
  rw [val_main_v17_apply, val_main_v16_apply, val_main_v15_apply, val_main_v14_apply, val_main_v13_apply,
    val_main_v12_apply, val_main_v11_apply, val_main_v10_apply, val_main_v9_apply, val_main_v8_apply,
    val_main_v7_apply, val_main_v6_apply, val_main_v5_apply, val_main_cst_apply, val_main_cst_0_apply,
    val_main_cst_1_apply, val_main_cst_2_apply]
  rfl

/-- Before the final reshape the reference holds the specification's array. -/
theorem out_eq (x0 : (⟨S16384x2048, .f32⟩ : BufTy).Contents (Elt Ideal)) (x1 : (⟨S8x8192x2048, .f32⟩ : BufTy).Contents (Elt Ideal))
    (x2 : (⟨S8x8192, .f32⟩ : BufTy).Contents (Elt Ideal)) (x3 : (⟨S8x2048x8192, .f32⟩ : BufTy).Contents (Elt Ideal))
    (x4 : (⟨S8x2048, .f32⟩ : BufTy).Contents (Elt Ideal)) :
    val_main_v21 (F := Ideal) x0 x1 x2 x3 x4 = Cert.FFN.outArr (val_main_v0 (F := Ideal) x0) x1 x2 x3 x4 := by
  funext i
  obtain ⟨e, t, d, rfl⟩ : ∃ (e : Fin 8) (t d : Fin 2048), i = ix3 e t d := ⟨i 0, i 1, i 2, eq_ix3 i⟩
  rw [val_main_v21_apply, val_main_v18_apply, val_main_v20_apply, val_main_v19_apply]
  have el : ∀ k : Fin 8192, lidx_main_v18 (ix3 e t d) k = ix3 e t k := fun k => funext fun a => Fin.ext (by
    match a with | ⟨0, _⟩ => rfl | ⟨1, _⟩ => rfl | ⟨2, _⟩ => rfl)
  have er : ∀ k : Fin 8192, ridx_main_v18 (ix3 e t d) k = ix3 e d k := fun k => funext fun a => Fin.ext (by
    match a with | ⟨0, _⟩ => rfl | ⟨1, _⟩ => rfl | ⟨2, _⟩ => rfl)
  have eb : idx_main_v19 (idx_main_v20 (ix3 e t d)) = ix2 e d := funext fun a => Fin.ext (by
    match a with | ⟨0, _⟩ => rfl | ⟨1, _⟩ => rfl)
  simp only [el, er, eb, hid_apply]
  rfl

end Cert.ReferenceIdeal.RefValue

end
-- ==== Proof.KernelPieces.lean ====
/-
  What one grid step leaves behind, as values. The kernel body has three shapes, by position `h` along the
  hidden axis: at the first tile it clears the running total and then adds the tile's contribution; in the
  middle it adds to what the step before left; at the last tile it adds and then writes total + output bias
  into the output block. Each is read here as the body's arithmetic applied to the blocks it loaded —
  the running total is stored whole, so what is read back is exactly what was stored.
-/
import proofs.«117410_j30734785970328_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen
open Idealize.ShloMosaic Idealize.ShloMosaic.TcCoe Idealize.ShloMosaic.Tactic Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A middle tile: the running total `xs0` plus this tile's contribution. -/
theorem total_mid (c : Dev nD) (i : grid0.Coords) (arg3 : Memref sig .tc .vmem S1x1024x2048 .f32) (harg3 : arg3.IsWhole) (arg4 : Memref sig .tc .vmem S1x512x2048 .f32) (harg4 : arg4.IsWhole) (arg5 : Memref sig .tc .vmem S1x1x512 .f32) (harg5 : arg5.IsWhole) (arg6 : Memref sig .tc .vmem S1x2048x512 .f32) (harg6 : arg6.IsWhole) (arg7 : Memref sig .tc .vmem S1x1x2048 .f32) (harg7 : arg7.IsWhole) (arg8 : Memref sig .tc .vmem S1x1024x2048 .f32) (harg8 : arg8.IsWhole) (arg9 : Memref sig .tc .vmem S1024x2048 .f32) (harg9 : arg9.IsWhole) (hc0 : ¬cond0_0 i) (hc1 : ¬cond0_1 i)
    (x0 : Vec F S1x1024x2048 .f32) (x1 : Vec F S1x512x2048 .f32) (x2 : Vec F S1x1x512 .f32) (x3 : Vec F S1x2048x512 .f32) (x4 : Vec F S1x1x2048 .f32) (xs0 : Vec F S1024x2048 .f32) :
    sout0_B_0 c i arg3 harg3 arg4 harg4 arg5 harg5 arg6 harg6 arg7 harg7 arg8 harg8 arg9 harg9 hc0 hc1 x0 x1 x2 x3 x4 xs0 = k0_pay1 (k0_pay4 x0 x1 x2 x3 xs0) := by
  unfold sout0_B_0
  rw [View.read_writes_eq_canon _ _ _ (scover0_B_0 c i arg3 harg3 arg4 harg4 arg5 harg5 arg6 harg6 arg7 harg7 arg8 harg8 arg9 harg9 hc0 hc1 x0 x1 x2 x3 x4 xs0)]
  unfold kernelRun0_B
  dsimp only
  sl_unfold_words
  rw [View.canon_unit_zero hz2]
  simp only [View.readAt_eq_ld, harg3.read_unread, harg4.read_unread, harg5.read_unread, harg6.read_unread, harg7.read_unread, harg9.read_unread,
    View.ld_unit_zero (S := S1x1024x2048) hz3, View.ld_unit_zero (S := S1x512x2048) hz3, View.ld_unit_zero (S := S1x1x512) hz3,
    View.ld_unit_zero (S := S1x2048x512) hz3, View.ld_unit_zero (S := S1x1x2048) hz3, View.ld_unit_zero (S := S1024x2048) hz2]

/-- The first tile: the cleared total plus this tile's contribution. -/
theorem total_first (c : Dev nD) (i : grid0.Coords) (arg3 : Memref sig .tc .vmem S1x1024x2048 .f32) (harg3 : arg3.IsWhole) (arg4 : Memref sig .tc .vmem S1x512x2048 .f32) (harg4 : arg4.IsWhole) (arg5 : Memref sig .tc .vmem S1x1x512 .f32) (harg5 : arg5.IsWhole) (arg6 : Memref sig .tc .vmem S1x2048x512 .f32) (harg6 : arg6.IsWhole) (arg7 : Memref sig .tc .vmem S1x1x2048 .f32) (harg7 : arg7.IsWhole) (arg8 : Memref sig .tc .vmem S1x1024x2048 .f32) (harg8 : arg8.IsWhole) (arg9 : Memref sig .tc .vmem S1024x2048 .f32) (harg9 : arg9.IsWhole) (hc0 : cond0_0 i) (hc1 : ¬cond0_1 i)
    (x0 : Vec F S1x1024x2048 .f32) (x1 : Vec F S1x512x2048 .f32) (x2 : Vec F S1x1x512 .f32) (x3 : Vec F S1x2048x512 .f32) (x4 : Vec F S1x1x2048 .f32) :
    sout0_A_0 c i arg3 harg3 arg4 harg4 arg5 harg5 arg6 harg6 arg7 harg7 arg8 harg8 arg9 harg9 hc0 hc1 x0 x1 x2 x3 x4 = k0_pay1 (k0_pay4 x0 x1 x2 x3 (k0_pay3 (F := F))) := by
  unfold sout0_A_0
  rw [View.read_writes_eq_canon _ _ _ (scover0_A_0 c i arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S1024x2048) hz2, View.readCov_unit_zero (S := S1024x2048) _ hz2]
  simp only [View.readAt_eq_ld, harg3.read_unread, harg4.read_unread, harg5.read_unread, harg6.read_unread, harg7.read_unread, harg9.read_unread,
    View.ld_unit_zero (S := S1x1024x2048) hz3, View.ld_unit_zero (S := S1x512x2048) hz3, View.ld_unit_zero (S := S1x1x512) hz3,
    View.ld_unit_zero (S := S1x2048x512) hz3, View.ld_unit_zero (S := S1x1x2048) hz3, View.ld_unit_zero (S := S1024x2048) hz2]

/-- The last tile, the running total: as in the middle. -/
theorem total_last (c : Dev nD) (i : grid0.Coords) (arg3 : Memref sig .tc .vmem S1x1024x2048 .f32) (harg3 : arg3.IsWhole) (arg4 : Memref sig .tc .vmem S1x512x2048 .f32) (harg4 : arg4.IsWhole) (arg5 : Memref sig .tc .vmem S1x1x512 .f32) (harg5 : arg5.IsWhole) (arg6 : Memref sig .tc .vmem S1x2048x512 .f32) (harg6 : arg6.IsWhole) (arg7 : Memref sig .tc .vmem S1x1x2048 .f32) (harg7 : arg7.IsWhole) (arg8 : Memref sig .tc .vmem S1x1024x2048 .f32) (harg8 : arg8.IsWhole) (arg9 : Memref sig .tc .vmem S1024x2048 .f32) (harg9 : arg9.IsWhole) (hc0 : ¬cond0_0 i) (hc1 : cond0_1 i)
    (x0 : Vec F S1x1024x2048 .f32) (x1 : Vec F S1x512x2048 .f32) (x2 : Vec F S1x1x512 .f32) (x3 : Vec F S1x2048x512 .f32) (x4 : Vec F S1x1x2048 .f32) (xs0 : Vec F S1024x2048 .f32) :
    sout0_C_0 c i arg3 harg3 arg4 harg4 arg5 harg5 arg6 harg6 arg7 harg7 arg8 harg8 arg9 harg9 hc0 hc1 x0 x1 x2 x3 x4 xs0 = k0_pay1 (k0_pay4 x0 x1 x2 x3 xs0) := by
  unfold sout0_C_0
  rw [View.read_writes_eq_canon _ _ _ (scover0_C_0 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero hz2]
  simp only [View.readAt_eq_ld, harg3.read_unread, harg4.read_unread, harg5.read_unread, harg6.read_unread, harg7.read_unread, harg9.read_unread,
    View.ld_unit_zero (S := S1x1024x2048) hz3, View.ld_unit_zero (S := S1x512x2048) hz3, View.ld_unit_zero (S := S1x1x512) hz3,
    View.ld_unit_zero (S := S1x2048x512) hz3, View.ld_unit_zero (S := S1x1x2048) hz3, View.ld_unit_zero (S := S1024x2048) hz2]

/-- The last tile, the output block: the finished total plus the output bias, along the token rows. -/
theorem block_last (c : Dev nD) (i : grid0.Coords) (arg3 : Memref sig .tc .vmem S1x1024x2048 .f32) (harg3 : arg3.IsWhole) (arg4 : Memref sig .tc .vmem S1x512x2048 .f32) (harg4 : arg4.IsWhole) (arg5 : Memref sig .tc .vmem S1x1x512 .f32) (harg5 : arg5.IsWhole) (arg6 : Memref sig .tc .vmem S1x2048x512 .f32) (harg6 : arg6.IsWhole) (arg7 : Memref sig .tc .vmem S1x1x2048 .f32) (harg7 : arg7.IsWhole) (arg8 : Memref sig .tc .vmem S1x1024x2048 .f32) (harg8 : arg8.IsWhole) (arg9 : Memref sig .tc .vmem S1024x2048 .f32) (harg9 : arg9.IsWhole) (hc0 : ¬cond0_0 i) (hc1 : cond0_1 i)
    (x0 : Vec F S1x1024x2048 .f32) (x1 : Vec F S1x512x2048 .f32) (x2 : Vec F S1x1x512 .f32) (x3 : Vec F S1x2048x512 .f32) (x4 : Vec F S1x1x2048 .f32) (xs0 : Vec F S1024x2048 .f32) :
    out0_C_5 c i arg3 harg3 arg4 harg4 arg5 harg5 arg6 harg6 arg7 harg7 arg8 harg8 arg9 harg9 hc0 hc1 x0 x1 x2 x3 x4 xs0 = k0_pay2 (k0_pay1 (k0_pay4 x0 x1 x2 x3 xs0)) x4 := by
  unfold out0_C_5
  rw [View.read_writes_eq_canon _ _ _ (cover0_C_5 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero (S := S1x1024x2048) hz3, View.readCov_unit_zero (S := S1024x2048) _ hz2]
  simp only [View.readAt_eq_ld, harg3.read_unread, harg4.read_unread, harg5.read_unread, harg6.read_unread, harg7.read_unread, harg9.read_unread,
    View.ld_unit_zero (S := S1x1024x2048) hz3, View.ld_unit_zero (S := S1x512x2048) hz3, View.ld_unit_zero (S := S1x1x512) hz3,
    View.ld_unit_zero (S := S1x2048x512) hz3, View.ld_unit_zero (S := S1x1x2048) hz3, View.ld_unit_zero (S := S1024x2048) hz2]

/-! ## The same at a grid point, over the blocks the point loads -/

section Points
variable (m : (ℓ : Loc nD τ sig) → Buf (Elt F) ℓ)

/-- At the first tile of a token block the running total is the cleared total plus the tile's contribution. -/
theorem total_at_first (c : Dev nD) (t : Fin cfg0.N) (h0 : t.val % 16 = 0) :
    (outsAt0 m c t.val t.isLt).2
      = k0_pay1 (k0_pay4 (iblk m c 0 t) (iblk m c 1 t) (iblk m c 2 t) (iblk m c 3 t) (k0_pay3 (F := F))) := by
  have h1 : ¬t.val % 16 = 15 := by omega
  rw [outsAt0_A m c t h0 h1]
  dsimp only
  exact total_first (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t)

/-- At every later tile it is what the point before left plus the tile's contribution. -/
theorem total_at_next (c : Dev nD) (t : Fin cfg0.N) (h0 : ¬t.val % 16 = 0) :
    (outsAt0 m c t.val t.isLt).2
      = k0_pay1 (k0_pay4 (iblk m c 0 t) (iblk m c 1 t) (iblk m c 2 t) (iblk m c 3 t) (outsAt0 m c (t.val - 1) (Nat.lt_of_le_of_lt (Nat.sub_le _ _) t.isLt)).2) := by
  by_cases h1 : t.val % 16 = 15
  · rw [outsAt0_C m c t h0 h1]
    dsimp only
    exact total_last (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2
  · rw [outsAt0_B m c t h0 h1]
    dsimp only
    exact total_mid (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2

/-- At the last tile the output block is the finished total plus the output bias. -/
theorem block_at_last (c : Dev nD) (t : Fin cfg0.N) (h1 : t.val % 16 = 15) :
    (outsAt0 m c t.val t.isLt).1 = k0_pay2 (outsAt0 m c t.val t.isLt).2 (iblk m c 4 t) := by
  have h0 : ¬t.val % 16 = 0 := by omega
  rw [outsAt0_C m c t h0 h1]
  dsimp only
  exact (block_last (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2).trans
    (congrArg (fun v => k0_pay2 v (iblk m c 4 t))
      (total_last (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2).symm)

end Points

end Cert.KernelIdeal.Pieces

end
-- ==== Proof.KernelPayload.lean ====
/-
  The kernel body's arithmetic, read entry by entry over the extended reals.

  One grid step works on a block of 1024 tokens `r`, a tile of 512 hidden units `j` and all 2048 model
  features. Its matrix products are plain sums over the contracted axis (the roundings to bf16 on the way in
  are the identity here), so at token `r` and output feature `d` the step leaves

      acc[r,d] + ∑ j < 512, gelu (∑ k < 2048, x[r,k] · w1[j,k] + b1[j]) · w2[d,j]

  and the closing step adds the output bias `b2[d]` to every token row.
-/
import proofs.«117410_j30734785970328_2_alg».proof.Proof.Gen.KernelIdeal.Skeleton
import proofs.«117410_j30734785970328_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen
open Idealize.ShloMosaic Idealize.ShloMosaic.ValueIdx

/-! ## The two matrix products at an entry -/

theorem lhs1_0 (i : S1024x512.Idx) (q : dot_S1024x2048_S512x2048_S1024x512_1_1_0_0_n_n.contr.Idx) : (dot_S1024x2048_S512x2048_S1024x512_1_1_0_0_n_n.lhsIdx i q 0).val = (i 0).val := by
  unfold DotDims.lhsIdx
  rw [dif_neg (show ¬(0 : Fin S1024x2048.rank) ∈ dot_S1024x2048_S512x2048_S1024x512_1_1_0_0_n_n.lhsBatch by decide), dif_pos (show (0 : Fin S1024x2048.rank) ∈ dot_S1024x2048_S512x2048_S1024x512_1_1_0_0_n_n.lhsNonContracting by decide)]
  rfl
theorem lhs1_1 (i : S1024x512.Idx) (q : dot_S1024x2048_S512x2048_S1024x512_1_1_0_0_n_n.contr.Idx) : (dot_S1024x2048_S512x2048_S1024x512_1_1_0_0_n_n.lhsIdx i q 1).val = (q ⟨0, by decide⟩).val :=
  dot_S1024x2048_S512x2048_S1024x512_1_1_0_0_n_n.lhsIdx_val_of_single rfl i q
theorem rhs1_0 (i : S1024x512.Idx) (q : dot_S1024x2048_S512x2048_S1024x512_1_1_0_0_n_n.contr.Idx) : (dot_S1024x2048_S512x2048_S1024x512_1_1_0_0_n_n.rhsIdx i q 0).val = (i 1).val := by
  unfold DotDims.rhsIdx
  rw [dif_neg (show ¬(0 : Fin S512x2048.rank) ∈ dot_S1024x2048_S512x2048_S1024x512_1_1_0_0_n_n.rhsBatch by decide), dif_pos (show (0 : Fin S512x2048.rank) ∈ dot_S1024x2048_S512x2048_S1024x512_1_1_0_0_n_n.rhsNonContracting by decide)]
  rfl
theorem rhs1_1 (i : S1024x512.Idx) (q : dot_S1024x2048_S512x2048_S1024x512_1_1_0_0_n_n.contr.Idx) : (dot_S1024x2048_S512x2048_S1024x512_1_1_0_0_n_n.rhsIdx i q 1).val = (q ⟨0, by decide⟩).val :=
  dot_S1024x2048_S512x2048_S1024x512_1_1_0_0_n_n.rhsIdx_val_of_single rfl i q

/-- Tokens against a tile of hidden-unit weights, contracted over the 2048 model features. -/
theorem matmul1_apply (l : FVec Ideal S1024x2048 .bf16) (w : FVec Ideal S512x2048 .bf16) (r : Fin 1024) (j : Fin 512) :
    matmul dot_S1024x2048_S512x2048_S1024x512_1_1_0_0_n_n none l w (constant (F := Ideal) S1024x512 .f32 0x00000000#32) (ix2 r j)
      = ∑ k : Fin 2048, l (ix2 r k) * w (ix2 j k) := by
  simp only [matmul]
  rw [Ideal.matmul_constant_zero_apply, ← Equiv.sum_comp (ValueIdx.contrEquiv1 dot_S1024x2048_S512x2048_S1024x512_1_1_0_0_n_n 2048 rfl rfl).symm]
  refine Finset.sum_congr rfl fun k _ => ?_
  have hk := ValueIdx.contrEquiv1_symm_val dot_S1024x2048_S512x2048_S1024x512_1_1_0_0_n_n 2048 rfl rfl k
  have el : dot_S1024x2048_S512x2048_S1024x512_1_1_0_0_n_n.lhsIdx (ix2 r j) ((ValueIdx.contrEquiv1 dot_S1024x2048_S512x2048_S1024x512_1_1_0_0_n_n 2048 rfl rfl).symm k) = ix2 r k := funext fun a => Fin.ext (by
    match a with
    | ⟨0, _⟩ => exact lhs1_0 _ _
    | ⟨1, _⟩ => exact (lhs1_1 _ _).trans hk)
  have er : dot_S1024x2048_S512x2048_S1024x512_1_1_0_0_n_n.rhsIdx (ix2 r j) ((ValueIdx.contrEquiv1 dot_S1024x2048_S512x2048_S1024x512_1_1_0_0_n_n 2048 rfl rfl).symm k) = ix2 j k := funext fun a => Fin.ext (by
    match a with
    | ⟨0, _⟩ => exact rhs1_0 _ _
    | ⟨1, _⟩ => exact (rhs1_1 _ _).trans hk)
  rw [el, er]

theorem lhs2_0 (i : S1024x2048.Idx) (q : dot_S1024x512_S2048x512_S1024x2048_1_1_0_0_n_n.contr.Idx) : (dot_S1024x512_S2048x512_S1024x2048_1_1_0_0_n_n.lhsIdx i q 0).val = (i 0).val := by
  unfold DotDims.lhsIdx
  rw [dif_neg (show ¬(0 : Fin S1024x512.rank) ∈ dot_S1024x512_S2048x512_S1024x2048_1_1_0_0_n_n.lhsBatch by decide), dif_pos (show (0 : Fin S1024x512.rank) ∈ dot_S1024x512_S2048x512_S1024x2048_1_1_0_0_n_n.lhsNonContracting by decide)]
  rfl
theorem lhs2_1 (i : S1024x2048.Idx) (q : dot_S1024x512_S2048x512_S1024x2048_1_1_0_0_n_n.contr.Idx) : (dot_S1024x512_S2048x512_S1024x2048_1_1_0_0_n_n.lhsIdx i q 1).val = (q ⟨0, by decide⟩).val :=
  dot_S1024x512_S2048x512_S1024x2048_1_1_0_0_n_n.lhsIdx_val_of_single rfl i q
theorem rhs2_0 (i : S1024x2048.Idx) (q : dot_S1024x512_S2048x512_S1024x2048_1_1_0_0_n_n.contr.Idx) : (dot_S1024x512_S2048x512_S1024x2048_1_1_0_0_n_n.rhsIdx i q 0).val = (i 1).val := by
  unfold DotDims.rhsIdx
  rw [dif_neg (show ¬(0 : Fin S2048x512.rank) ∈ dot_S1024x512_S2048x512_S1024x2048_1_1_0_0_n_n.rhsBatch by decide), dif_pos (show (0 : Fin S2048x512.rank) ∈ dot_S1024x512_S2048x512_S1024x2048_1_1_0_0_n_n.rhsNonContracting by decide)]
  rfl
theorem rhs2_1 (i : S1024x2048.Idx) (q : dot_S1024x512_S2048x512_S1024x2048_1_1_0_0_n_n.contr.Idx) : (dot_S1024x512_S2048x512_S1024x2048_1_1_0_0_n_n.rhsIdx i q 1).val = (q ⟨0, by decide⟩).val :=
  dot_S1024x512_S2048x512_S1024x2048_1_1_0_0_n_n.rhsIdx_val_of_single rfl i q

/-- Activated hidden units against a tile of output weights, contracted over the tile's 512 hidden units. -/
theorem matmul2_apply (l : FVec Ideal S1024x512 .bf16) (w : FVec Ideal S2048x512 .bf16) (r : Fin 1024) (d : Fin 2048) :
    matmul dot_S1024x512_S2048x512_S1024x2048_1_1_0_0_n_n none l w (constant (F := Ideal) S1024x2048 .f32 0x00000000#32) (ix2 r d)
      = ∑ j : Fin 512, l (ix2 r j) * w (ix2 d j) := by
  simp only [matmul]
  rw [Ideal.matmul_constant_zero_apply, ← Equiv.sum_comp (ValueIdx.contrEquiv1 dot_S1024x512_S2048x512_S1024x2048_1_1_0_0_n_n 512 rfl rfl).symm]
  refine Finset.sum_congr rfl fun k _ => ?_
  have hk := ValueIdx.contrEquiv1_symm_val dot_S1024x512_S2048x512_S1024x2048_1_1_0_0_n_n 512 rfl rfl k
  have el : dot_S1024x512_S2048x512_S1024x2048_1_1_0_0_n_n.lhsIdx (ix2 r d) ((ValueIdx.contrEquiv1 dot_S1024x512_S2048x512_S1024x2048_1_1_0_0_n_n 512 rfl rfl).symm k) = ix2 r k := funext fun a => Fin.ext (by
    match a with
    | ⟨0, _⟩ => exact lhs2_0 _ _
    | ⟨1, _⟩ => exact (lhs2_1 _ _).trans hk)
  have er : dot_S1024x512_S2048x512_S1024x2048_1_1_0_0_n_n.rhsIdx (ix2 r d) ((ValueIdx.contrEquiv1 dot_S1024x512_S2048x512_S1024x2048_1_1_0_0_n_n 512 rfl rfl).symm k) = ix2 d k := funext fun a => Fin.ext (by
    match a with
    | ⟨0, _⟩ => exact rhs2_0 _ _
    | ⟨1, _⟩ => exact (rhs2_1 _ _).trans hk)
  rw [el, er]

/-! ## The stages of one step -/

/-- The tile's hidden units before the activation: tokens against the tile's weights, plus the tile's bias row. -/
def hpre (x0 : Vec Ideal S1x1024x2048 .f32) (x1 : Vec Ideal S1x512x2048 .f32) (x2 : Vec Ideal S1x1x512 .f32) : FVec Ideal S1024x512 .f32 :=
  addf (matmul dot_S1024x2048_S512x2048_S1024x512_1_1_0_0_n_n none
      (truncf .bf16 (shapeCast S1024x2048 x0 shapeCasts_S1x1024x2048_S1024x2048) bitsLt_bf16_f32)
      (truncf .bf16 (shapeCast S512x2048 x1 shapeCasts_S1x512x2048_S512x2048) bitsLt_bf16_f32)
      (constant (F := Ideal) S1024x512 .f32 0x00000000#32))
    (broadcastTo S1024x512 (shapeCast S1x512 x2 shapeCasts_S1x1x512_S1x512) broadcasts_S1x512_S1024x512)

/-- The activation, entrywise: the tanh form with the cube associated to the right. -/
def hact (u : FVec Ideal S1024x512 .f32) : FVec Ideal S1024x512 .f32 :=
  mulf u (mulf (broadcast S1024x512 (Scalar.ofBits (F := Ideal) .f32 0x3F000000#32))
    (addf (broadcast S1024x512 (Scalar.ofBits (F := Ideal) .f32 0x3F800000#32))
      (tanh (mulf (broadcast S1024x512 (Scalar.ofBits (F := Ideal) .f32 0x3F4C422A#32))
        (addf u (mulf (broadcast S1024x512 (Scalar.ofBits (F := Ideal) .f32 0x3D372713#32)) (mulf u (mulf u u))))))))

/-- The step's store into the running total is these stages composed. -/
theorem pay4_eq (x0 : Vec Ideal S1x1024x2048 .f32) (x1 : Vec Ideal S1x512x2048 .f32) (x2 : Vec Ideal S1x1x512 .f32)
    (x3 : Vec Ideal S1x2048x512 .f32) (acc : Vec Ideal S1024x2048 .f32) :
    k0_pay4 (F := Ideal) x0 x1 x2 x3 acc
      = addf acc (matmul dot_S1024x512_S2048x512_S1024x2048_1_1_0_0_n_n none
          (truncf .bf16 (hact (hpre x0 x1 x2)) bitsLt_bf16_f32)
          (truncf .bf16 (shapeCast S2048x512 x3 shapeCasts_S1x2048x512_S2048x512) bitsLt_bf16_f32)
          (constant (F := Ideal) S1024x2048 .f32 0x00000000#32)) := rfl

theorem hpre_apply (x0 : Vec Ideal S1x1024x2048 .f32) (x1 : Vec Ideal S1x512x2048 .f32) (x2 : Vec Ideal S1x1x512 .f32)
    (r : Fin 1024) (j : Fin 512) :
    hpre x0 x1 x2 (ix2 r j) = (∑ k : Fin 2048, x0 (ix3 (0 : Fin 1) r k) * x1 (ix3 (0 : Fin 1) j k)) + x2 (ix3 (0 : Fin 1) (0 : Fin 1) j) := by
  unfold hpre
  rw [addf_apply, matmul1_apply, broadcastTo_1b_ab_apply, shapeCast_1ab_ab_apply]
  refine congrArg (· + _) (Finset.sum_congr rfl fun k _ => ?_)
  rw [truncf_apply, truncf_apply, shapeCast_1ab_ab_apply, shapeCast_1ab_ab_apply]

theorem hact_apply (u : FVec Ideal S1024x512 .f32) (i : S1024x512.Idx) : hact u i = Cert.FFN.gelu (u i) := rfl

/-- One step's running total at token `r`, feature `d`. -/
theorem pay4_apply (x0 : Vec Ideal S1x1024x2048 .f32) (x1 : Vec Ideal S1x512x2048 .f32) (x2 : Vec Ideal S1x1x512 .f32)
    (x3 : Vec Ideal S1x2048x512 .f32) (acc : Vec Ideal S1024x2048 .f32) (r : Fin 1024) (d : Fin 2048) :
    k0_pay4 (F := Ideal) x0 x1 x2 x3 acc (ix2 r d)
      = acc (ix2 r d) + ∑ j : Fin 512,
          Cert.FFN.gelu ((∑ k : Fin 2048, x0 (ix3 (0 : Fin 1) r k) * x1 (ix3 (0 : Fin 1) j k)) + x2 (ix3 (0 : Fin 1) (0 : Fin 1) j))
            * x3 (ix3 (0 : Fin 1) d j) := by
  rw [pay4_eq, addf_apply, matmul2_apply]
  refine congrArg (_ + ·) (Finset.sum_congr rfl fun j _ => ?_)
  rw [truncf_apply, truncf_apply, hact_apply, hpre_apply, shapeCast_1ab_ab_apply]

/-- The cleared running total is zero everywhere. -/
theorem pay3_apply (i : S1024x2048.Idx) : k0_pay3 (F := Ideal) i = 0 := by
  unfold k0_pay3
  rw [shapeCast_self]
  exact Ideal.ofBits_zero_f32

/-- Storing the running total back changes nothing. -/
theorem pay1_eq (v : FVec Ideal S1024x2048 .f32) : k0_pay1 (F := Ideal) v = v := shapeCast_self _ _

/-- The closing store at (·, r, d): the finished total plus the output bias of feature `d`. -/
theorem pay2_apply (v : Vec Ideal S1024x2048 .f32) (x4 : Vec Ideal S1x1x2048 .f32) (u : Fin 1) (r : Fin 1024) (d : Fin 2048) :
    k0_pay2 (F := Ideal) v x4 (ix3 u r d) = v (ix2 r d) + x4 (ix3 (0 : Fin 1) (0 : Fin 1) d) := by
  unfold k0_pay2
  rw [shapeCast_ab_1ab_apply, addf_apply, broadcastTo_1b_ab_apply, shapeCast_1ab_ab_apply]

end Cert.KernelIdeal.Payload

end
-- ==== Proof.KernelBlocks.lean ====
/-
  What the kernel's grid steps read. The host lines before the kernel only re-lay arrays (tokens grouped by
  expert; each bias given a unit middle axis), and grid step `t` of 256 — expert `t / 32`, token block
  `(t / 16) % 2`, hidden tile `t % 16` — loads from each array the block its index map names: 1024 token rows,
  512 rows of the first weight tensor and 512 entries of its bias, 512 columns of the second weight tensor,
  and the expert's output bias.
-/
import proofs.«117410_j30734785970328_2_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Blocks

open Cert.KernelIdeal Cert.KernelIdeal.Gen
open Idealize.ShloMosaic Idealize.ShloMosaic.TcCoe Idealize.ShloMosaic.ValueIdx Idealize.SL.Sem

variable {F : FTy → Type} [FloatOps F]
variable (m : (ℓ : Loc nD τ sig) → Buf (Elt F) ℓ)

/-! ## The arrays as the kernel finds them -/

theorem found_tokens (c : Dev nD) :
    (V m c main_v0 : S8x2048x2048.Idx → Elt F .f32)
      = shapeCast S8x2048x2048 (m ((c : Thread nD τ).loc main_arg0)) shapeCasts_S16384x2048_S8x2048x2048 := by
  show StableHlo.after hostOps0 (fun b => m (c, b)) (Proc.devRef .tc main_v0) = _
  after_results
  rfl

theorem found_bias1 (c : Dev nD) :
    (V m c main_v1 : S8x1x8192.Idx → Elt F .f32)
      = shapeCast S8x1x8192 (m ((c : Thread nD τ).loc main_arg2)) shapeCasts_S8x8192_S8x1x8192 := by
  show StableHlo.after hostOps0 (fun b => m (c, b)) (Proc.devRef .tc main_v1) = _
  after_results
  rfl

theorem found_bias2 (c : Dev nD) :
    (V m c main_v2 : S8x1x2048.Idx → Elt F .f32)
      = shapeCast S8x1x2048 (m ((c : Thread nD τ).loc main_arg4)) shapeCasts_S8x2048_S8x1x2048 := by
  show StableHlo.after hostOps0 (fun b => m (c, b)) (Proc.devRef .tc main_v2) = _
  after_results
  rfl

/-- A bias with a unit middle axis reads the bias itself. -/
theorem bias1_apply (c : Dev nD) (e : Fin 8) (u : Fin 1) (h : Fin 8192) :
    V m c main_v1 (ix3 e u h) = m ((c : Thread nD τ).loc main_arg2) (ix2 e h) := by
  rw [found_bias1]
  refine shapeCast_apply (s := S8x8192) (t := S8x1x8192) _ shapeCasts_S8x8192_S8x1x8192 (ix3 e u h) (ix2 e h) ?_
  rw [Shape.rowMajor_val_two, Shape.rowMajor_val_three]
  have hu : u.val = 0 := by omega
  show e.val * 8192 + h.val = (e.val * 1 + u.val) * 8192 + h.val
  rw [hu]; omega

theorem bias2_apply (c : Dev nD) (e : Fin 8) (u : Fin 1) (d : Fin 2048) :
    V m c main_v2 (ix3 e u d) = m ((c : Thread nD τ).loc main_arg4) (ix2 e d) := by
  rw [found_bias2]
  refine shapeCast_apply (s := S8x2048) (t := S8x1x2048) _ shapeCasts_S8x2048_S8x1x2048 (ix3 e u d) (ix2 e d) ?_
  rw [Shape.rowMajor_val_two, Shape.rowMajor_val_three]
  have hu : u.val = 0 := by omega
  show e.val * 2048 + d.val = (e.val * 1 + u.val) * 2048 + d.val
  rw [hu]; omega

/-! ## A grid step's coordinates -/

/-- The expert of step `n`. -/
def pE (n : ℕ) (hn : n < 256) : Fin 8 := ⟨n / 32, by omega⟩
/-- Token `r` of step `n`'s token block, among the expert's 2048 tokens. -/
def pRow (n : ℕ) (hn : n < 256) (r : Fin 1024) : Fin 2048 := ⟨1024 * ((n / 16) % 2) + r.val, by have := r.isLt; omega⟩
/-- The hidden tile of step `n`. -/
def pTile (n : ℕ) : Fin 16 := ⟨n % 16, Nat.mod_lt _ (by decide)⟩
/-- Hidden unit `j` of step `n`'s tile. -/
def pCol (n : ℕ) (j : Fin 512) : Fin 8192 := ⟨512 * (n % 16) + j.val, by have := j.isLt; omega⟩

/-- The printed index maps, decided once over the grid. -/
theorem index_facts : ∀ t : Fin cfg0.N,
    (win0_0.index t (0 : Fin 3) = t.val / 32 ∧ win0_0.index t (1 : Fin 3) = (t.val / 16) % 2 ∧ win0_0.index t (2 : Fin 3) = 0)
    ∧ (win0_1.index t (0 : Fin 3) = t.val / 32 ∧ win0_1.index t (1 : Fin 3) = t.val % 16 ∧ win0_1.index t (2 : Fin 3) = 0)
    ∧ (win0_2.index t (0 : Fin 3) = t.val / 32 ∧ win0_2.index t (1 : Fin 3) = 0 ∧ win0_2.index t (2 : Fin 3) = t.val % 16)
    ∧ (win0_3.index t (0 : Fin 3) = t.val / 32 ∧ win0_3.index t (1 : Fin 3) = 0 ∧ win0_3.index t (2 : Fin 3) = t.val % 16)
    ∧ (win0_4.index t (0 : Fin 3) = t.val / 32 ∧ win0_4.index t (1 : Fin 3) = 0 ∧ win0_4.index t (2 : Fin 3) = 0)
    ∧ (win0_5.index t (0 : Fin 3) = t.val / 32 ∧ win0_5.index t (1 : Fin 3) = (t.val / 16) % 2 ∧ win0_5.index t (2 : Fin 3) = 0) :=
  (by decide +kernel : ∀ t : Fin grid0.N, _)

theorem lt256 (t : Fin cfg0.N) : t.val < 256 := lt_of_lt_of_eq t.isLt (show cfg0.N = 256 from N_0)

/-! ## The blocks a step loads -/

theorem tokens_apply (c : Dev nD) (t : Fin cfg0.N) (u : Fin 1) (r : Fin 1024) (k : Fin 2048) :
    (iblk m c 0 t : Vec F S1x1024x2048 .f32) (ix3 u r k) = V m c main_v0 (ix3 (pE t.val (lt256 t)) (pRow t.val (lt256 t) r) k) := by
  show V m c main_v0 (((cfg0.win 0).blk t).view.emb (ix3 u r k)) = V m c main_v0 _
  refine congrArg (V m c main_v0) (funext fun a => Fin.ext ?_)
  obtain ⟨⟨e0, e1, e2⟩, -⟩ := index_facts t
  have hu : u.val = 0 := by omega
  match a with
  | ⟨0, _⟩ => show win0_0.index t (0 : Fin 3) * 1 + 1 * u.val = t.val / 32; rw [e0, hu]; omega
  | ⟨1, _⟩ => show win0_0.index t (1 : Fin 3) * 1024 + 1 * r.val = 1024 * ((t.val / 16) % 2) + r.val; rw [e1]; omega
  | ⟨2, _⟩ => show win0_0.index t (2 : Fin 3) * 2048 + 1 * k.val = k.val; rw [e2]; omega

theorem weights1_apply (c : Dev nD) (t : Fin cfg0.N) (u : Fin 1) (j : Fin 512) (k : Fin 2048) :
    (iblk m c 1 t : Vec F S1x512x2048 .f32) (ix3 u j k) = V m c main_arg1 (ix3 (pE t.val (lt256 t)) (pCol t.val j) k) := by
  show V m c main_arg1 (((cfg0.win 1).blk t).view.emb (ix3 u j k)) = V m c main_arg1 _
  refine congrArg (V m c main_arg1) (funext fun a => Fin.ext ?_)
  obtain ⟨-, ⟨e0, e1, e2⟩, -⟩ := index_facts t
  have hu : u.val = 0 := by omega
  match a with
  | ⟨0, _⟩ => show win0_1.index t (0 : Fin 3) * 1 + 1 * u.val = t.val / 32; rw [e0, hu]; omega
  | ⟨1, _⟩ => show win0_1.index t (1 : Fin 3) * 512 + 1 * j.val = 512 * (t.val % 16) + j.val; rw [e1]; omega
  | ⟨2, _⟩ => show win0_1.index t (2 : Fin 3) * 2048 + 1 * k.val = k.val; rw [e2]; omega

theorem bias1_block_apply (c : Dev nD) (t : Fin cfg0.N) (u v : Fin 1) (j : Fin 512) :
    (iblk m c 2 t : Vec F S1x1x512 .f32) (ix3 u v j) = V m c main_v1 (ix3 (pE t.val (lt256 t)) (0 : Fin 1) (pCol t.val j)) := by
  show V m c main_v1 (((cfg0.win 2).blk t).view.emb (ix3 u v j)) = V m c main_v1 _
  refine congrArg (V m c main_v1) (funext fun a => Fin.ext ?_)
  obtain ⟨-, -, ⟨e0, e1, e2⟩, -⟩ := index_facts t
  have hu : u.val = 0 := by omega
  have hv : v.val = 0 := by omega
  match a with
  | ⟨0, _⟩ => show win0_2.index t (0 : Fin 3) * 1 + 1 * u.val = t.val / 32; rw [e0, hu]; omega
  | ⟨1, _⟩ => show win0_2.index t (1 : Fin 3) * 1 + 1 * v.val = 0; rw [e1, hv]
  | ⟨2, _⟩ => show win0_2.index t (2 : Fin 3) * 512 + 1 * j.val = 512 * (t.val % 16) + j.val; rw [e2]; omega

theorem weights2_apply (c : Dev nD) (t : Fin cfg0.N) (u : Fin 1) (d : Fin 2048) (j : Fin 512) :
    (iblk m c 3 t : Vec F S1x2048x512 .f32) (ix3 u d j) = V m c main_arg3 (ix3 (pE t.val (lt256 t)) d (pCol t.val j)) := by
  show V m c main_arg3 (((cfg0.win 3).blk t).view.emb (ix3 u d j)) = V m c main_arg3 _
  refine congrArg (V m c main_arg3) (funext fun a => Fin.ext ?_)
  obtain ⟨-, -, -, ⟨e0, e1, e2⟩, -⟩ := index_facts t
  have hu : u.val = 0 := by omega
  match a with
  | ⟨0, _⟩ => show win0_3.index t (0 : Fin 3) * 1 + 1 * u.val = t.val / 32; rw [e0, hu]; omega
  | ⟨1, _⟩ => show win0_3.index t (1 : Fin 3) * 2048 + 1 * d.val = d.val; rw [e1]; omega
  | ⟨2, _⟩ => show win0_3.index t (2 : Fin 3) * 512 + 1 * j.val = 512 * (t.val % 16) + j.val; rw [e2]; omega

theorem bias2_block_apply (c : Dev nD) (t : Fin cfg0.N) (u v : Fin 1) (d : Fin 2048) :
    (iblk m c 4 t : Vec F S1x1x2048 .f32) (ix3 u v d) = V m c main_v2 (ix3 (pE t.val (lt256 t)) (0 : Fin 1) d) := by
  show V m c main_v2 (((cfg0.win 4).blk t).view.emb (ix3 u v d)) = V m c main_v2 _
  refine congrArg (V m c main_v2) (funext fun a => Fin.ext ?_)
  obtain ⟨-, -, -, -, ⟨e0, e1, e2⟩, -⟩ := index_facts t
  have hu : u.val = 0 := by omega
  have hv : v.val = 0 := by omega
  match a with
  | ⟨0, _⟩ => show win0_4.index t (0 : Fin 3) * 1 + 1 * u.val = t.val / 32; rw [e0, hu]; omega
  | ⟨1, _⟩ => show win0_4.index t (1 : Fin 3) * 1 + 1 * v.val = 0; rw [e1, hv]
  | ⟨2, _⟩ => show win0_4.index t (2 : Fin 3) * 2048 + 1 * d.val = d.val; rw [e2]; omega

/-- Where entry (·, r, d) of step `t`'s output block sits in the output array. -/
theorem out_emb (t : Fin cfg0.N) (u : Fin 1) (r : Fin 1024) (d : Fin 2048) :
    (((cfg0.win 5).blk t).view.emb (ix3 u r d) : S8x2048x2048.Idx) = ix3 (pE t.val (lt256 t)) (pRow t.val (lt256 t) r) d := by
  refine funext fun a => Fin.ext ?_
  obtain ⟨-, -, -, -, -, ⟨e0, e1, e2⟩⟩ := index_facts t
  have hu : u.val = 0 := by omega
  match a with
  | ⟨0, _⟩ => show win0_5.index t (0 : Fin 3) * 1 + 1 * u.val = t.val / 32; rw [e0, hu]; omega
  | ⟨1, _⟩ => show win0_5.index t (1 : Fin 3) * 1024 + 1 * r.val = 1024 * ((t.val / 16) % 2) + r.val; rw [e1]; omega
  | ⟨2, _⟩ => show win0_5.index t (2 : Fin 3) * 2048 + 1 * d.val = d.val; rw [e2]; omega

/-- An entry of the output array lies in step `t`'s block iff each coordinate is in the block's range. -/
theorem mem_out_block (t : Fin cfg0.N) (i : S8x2048x2048.Idx) :
    i ∈ ((cfg0.win 5).blk t).view.set ↔ ∀ a : Fin 3, win0_5.index t a * S1x1024x2048.size a ≤ (i a).val
      ∧ (i a).val < win0_5.index t a * S1x1024x2048.size a + S1x1024x2048.size a := by
  show i ∈ ((View.whole main_v3).slice (win0_5.rect t)).set ↔ _
  rw [View.set_slice_whole, Rect.mem_set_unit]
  exact Iff.rfl

end Cert.KernelIdeal.Blocks

end
-- ==== Proof.KernelValue.lean ====
/-
  The kernel's result. The grid walks, for each expert and each block of 1024 tokens, the 16 hidden tiles in
  order; the running total kept between steps is, after tile `q`, the sum of the contributions of tiles
  `0 … q` (by induction on the step: the first tile starts from zero, each later one adds to what the step
  before left). After the last tile it is the sum over every hidden unit, the closing store adds the output
  bias, and that block is written to the output array — one block per (expert, token block), which together
  fill it. The host line after the kernel only re-lays the array.
-/
import proofs.«117410_j30734785970328_2_alg».proof.Proof.KernelPieces
import proofs.«117410_j30734785970328_2_alg».proof.Proof.KernelPayload
import proofs.«117410_j30734785970328_2_alg».proof.Proof.KernelBlocks
import proofs.«117410_j30734785970328_2_alg».proof.Proof.Spec

noncomputable section

namespace Cert.KernelIdeal.Layer

open Cert.KernelIdeal Cert.KernelIdeal.Gen Cert.KernelIdeal.Blocks
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The five arrays, as the kernel finds them -/

abbrev X (c : Dev nD) : Cert.FFN.SX.Idx → EReal := V m c main_v0
abbrev W1 (c : Dev nD) : Cert.FFN.SW1.Idx → EReal := V m c main_arg1
abbrev B1 (c : Dev nD) : Cert.FFN.SB1.Idx → EReal := m ((c : Thread nD τ).loc main_arg2)
abbrev W2 (c : Dev nD) : Cert.FFN.SW2.Idx → EReal := V m c main_arg3
abbrev B2 (c : Dev nD) : Cert.FFN.SB2.Idx → EReal := m ((c : Thread nD τ).loc main_arg4)

theorem hcol_eq (n : ℕ) (h : n % 16 < 16) (j : Fin 512) : Cert.FFN.hcol ⟨n % 16, h⟩ j = pCol n j := rfl

/-! ## One step -/

/-- A step adds its tile's contribution to the running total it is given. -/
theorem step_apply (c : Dev nD) (t : Fin cfg0.N) (acc : Vec Ideal S1024x2048 .f32) (r : Fin 1024) (d : Fin 2048) :
    k0_pay1 (F := Ideal) (k0_pay4 (iblk m c 0 t) (iblk m c 1 t) (iblk m c 2 t) (iblk m c 3 t) acc) (ix2 r d)
      = acc (ix2 r d) + Cert.FFN.tileN (X m c) (W1 m c) (B1 m c) (W2 m c) (pE t.val (lt256 t)) (pRow t.val (lt256 t) r) d (t.val % 16) := by
  rw [Payload.pay1_eq]
  refine (Payload.pay4_apply (iblk m c 0 t) (iblk m c 1 t) (iblk m c 2 t) (iblk m c 3 t) acc r d).trans ?_
  refine congrArg (acc (ix2 r d) + ·) ?_
  unfold Cert.FFN.tileN
  rw [dif_pos (Nat.mod_lt _ (by decide))]
  unfold Cert.FFN.tile Cert.FFN.term Cert.FFN.hid
  refine Finset.sum_congr rfl fun j _ => ?_
  rw [hcol_eq]
  have e3 : (iblk m c 3 t : Vec Ideal S1x2048x512 .f32) (ix3 (0 : Fin 1) d j) = W2 m c (ix3 (pE t.val (lt256 t)) d (pCol t.val j)) :=
    weights2_apply m c t 0 d j
  have e2 : (iblk m c 2 t : Vec Ideal S1x1x512 .f32) (ix3 (0 : Fin 1) (0 : Fin 1) j) = B1 m c (ix2 (pE t.val (lt256 t)) (pCol t.val j)) :=
    (bias1_block_apply m c t 0 0 j).trans (bias1_apply m c _ 0 _)
  rw [e3, e2]
  refine congrArg (fun s => Cert.FFN.gelu (s + B1 m c (ix2 (pE t.val (lt256 t)) (pCol t.val j))) * W2 m c (ix3 (pE t.val (lt256 t)) d (pCol t.val j)))
    (Finset.sum_congr rfl fun k _ => ?_)
  rw [tokens_apply m c t 0 r k, weights1_apply m c t 0 j k]

/-! ## The running total, step by step -/

/-- After step `n`: the contributions of the hidden tiles `0 … n % 16`, for the step's expert and token block. -/
def total (c : Dev nD) (n : ℕ) (hn : n < 256) : Vec Ideal S1024x2048 .f32 := fun y =>
  Cert.FFN.partialSum (X m c) (W1 m c) (B1 m c) (W2 m c) (pE n hn) (pRow n hn ⟨(y 0).val, (y 0).isLt⟩) ⟨(y 1).val, (y 1).isLt⟩ (n % 16)

theorem total_apply (c : Dev nD) (n : ℕ) (hn : n < 256) (r : Fin 1024) (d : Fin 2048) :
    total m c n hn (ix2 r d) = Cert.FFN.partialSum (X m c) (W1 m c) (B1 m c) (W2 m c) (pE n hn) (pRow n hn r) d (n % 16) := rfl

theorem lt256' {n : ℕ} (hn : n < cfg0.N) : n < 256 := lt_of_lt_of_eq hn (show cfg0.N = 256 from N_0)

/-- One step of the induction: if the step before left its running total, so does this one. -/
theorem total_step (c : Dev nD) (t : Fin cfg0.N)
    (prev : ¬t.val % 16 = 0 → (outsAt0 m c (t.val - 1) (Nat.lt_of_le_of_lt (Nat.sub_le _ _) t.isLt)).2
      = total m c (t.val - 1) (lt256' (Nat.lt_of_le_of_lt (Nat.sub_le _ _) t.isLt))) :
    (outsAt0 m c t.val t.isLt).2 = total m c t.val (lt256 t) := by
  funext y
  obtain ⟨r, d, rfl⟩ : ∃ (r : Fin 1024) (d : Fin 2048), y = ix2 r d := ⟨y 0, y 1, eq_ix2 y⟩
  have ht := lt256 t
  by_cases h0 : t.val % 16 = 0
  · rw [Pieces.total_at_first m c t h0, step_apply, Payload.pay3_apply, zero_add, total_apply, h0]
    exact (Cert.FFN.partialSum_zero _ _ _ _ _ _ _).symm
  · rw [Pieces.total_at_next m c t h0, step_apply, prev h0, total_apply, total_apply]
    have hk : t.val % 16 = (t.val - 1) % 16 + 1 := by omega
    have hE : pE (t.val - 1) (lt256' (Nat.lt_of_le_of_lt (Nat.sub_le _ _) t.isLt)) = pE t.val (lt256 t) :=
      Fin.ext (by show (t.val - 1) / 32 = t.val / 32; omega)
    have hR : pRow (t.val - 1) (lt256' (Nat.lt_of_le_of_lt (Nat.sub_le _ _) t.isLt)) r = pRow t.val (lt256 t) r :=
      Fin.ext (by show 1024 * (((t.val - 1) / 16) % 2) + r.val = 1024 * ((t.val / 16) % 2) + r.val; omega)
    rw [hE, hR, hk, Cert.FFN.partialSum_succ]

/-- The running total after every step, by induction on the step. -/
theorem outsAt_total (c : Dev nD) : ∀ (n : ℕ) (hn : n < cfg0.N), (outsAt0 m c n hn).2 = total m c n (lt256' hn)
  | 0, hn => total_step m c ⟨0, hn⟩ (fun h => absurd (Nat.zero_mod 16) h)
  | n + 1, hn => total_step m c ⟨n + 1, hn⟩ (fun _ => outsAt_total c n (Nat.lt_of_succ_lt hn))

/-! ## The output array -/

/-- What the output array ends holding: the layer's output, over (expert, token, feature). -/
def result (c : Dev nD) : Buf (Elt Ideal) ((c : Thread nD τ).loc main_v3) :=
  Cert.FFN.outArr (X m c) (W1 m c) (B1 m c) (W2 m c) (B2 m c)

/-- The block a closing step writes back is that block of the layer's output. -/
theorem flushed_eq (c : Dev nD) (t : Fin cfg0.N) (hf : (cfg0.win 5).flush t = true) :
    (dats m 0 c).flushed 5 t = ((cfg0.win 5).blk t).view.read (Elt Ideal) (result m c) := by
  have h15 : t.val % 16 = 15 := (flush0_5 t).mp hf
  show (cfg0.win 5).cut (grid0.coords t) ((dats m 0 c).after 5 t) = _
  rw [after0_5, Pieces.block_at_last m c t h15]
  refine funext fun (y : S1x1024x2048.Idx) => ?_
  obtain ⟨u, r, d, rfl⟩ : ∃ (u : Fin 1) (r : Fin 1024) (d : Fin 2048), y = ix3 u r d := ⟨y 0, y 1, y 2, eq_ix3 y⟩
  show k0_pay2 (F := Ideal) _ _ (ix3 u r d) = result m c (((cfg0.win 5).blk t).view.emb (ix3 u r d))
  rw [Payload.pay2_apply, outsAt_total, total_apply, bias2_block_apply m c t 0 0 d, bias2_apply, out_emb, h15,
    Cert.FFN.partialSum_last]
  rfl

/-- Every entry of the output array is in the block of some closing step. -/
theorem covered (i : S8x2048x2048.Idx) :
    ∃ t : Fin cfg0.N, (cfg0.win 5).flush t = true ∧ i ∈ ((cfg0.win 5).blk t).view.set := by
  have h0 : (i 0).val < 8 := (i 0).isLt
  have h1 : (i 1).val < 2048 := (i 1).isLt
  have h2 : (i 2).val < 2048 := (i 2).isLt
  obtain ⟨n, hn⟩ : ∃ n, n = 32 * (i 0).val + 16 * ((i 1).val / 1024) + 15 := ⟨_, rfl⟩
  have hN : n < cfg0.N := by rw [show cfg0.N = 256 from N_0]; omega
  refine ⟨⟨n, hN⟩, (flush0_5 _).mpr (by show n % 16 = 15; omega), ?_⟩
  rw [mem_out_block]
  obtain ⟨-, -, -, -, -, ⟨e0, e1, e2⟩⟩ := index_facts ⟨n, hN⟩
  have e0' : win0_5.index ⟨n, hN⟩ (0 : Fin 3) = n / 32 := e0
  have e1' : win0_5.index ⟨n, hN⟩ (1 : Fin 3) = (n / 16) % 2 := e1
  have e2' : win0_5.index ⟨n, hN⟩ (2 : Fin 3) = 0 := e2
  intro a
  match a with
  | ⟨0, _⟩ =>
    show win0_5.index ⟨n, hN⟩ (0 : Fin 3) * 1 ≤ (i 0).val ∧ (i 0).val < win0_5.index ⟨n, hN⟩ (0 : Fin 3) * 1 + 1
    rw [e0']; omega
  | ⟨1, _⟩ =>
    show win0_5.index ⟨n, hN⟩ (1 : Fin 3) * 1024 ≤ (i 1).val ∧ (i 1).val < win0_5.index ⟨n, hN⟩ (1 : Fin 3) * 1024 + 1024
    rw [e1']; omega
  | ⟨2, _⟩ =>
    show win0_5.index ⟨n, hN⟩ (2 : Fin 3) * 2048 ≤ (i 2).val ∧ (i 2).val < win0_5.index ⟨n, hN⟩ (2 : Fin 3) * 2048 + 2048
    rw [e2']; omega

/-- So the output array ends holding the layer's output. -/
theorem final (c : Dev nD) : (dats m 0 c).arrAt 5 cfg0.N = result m c :=
  (dats m 0 c).arrAt_eq_of_cover 5 (result m c) (flushed_eq m c) covered

end Cert.KernelIdeal.Layer

end
-- ==== Proof.KernelRun.lean ====
/-
  The kernel's program, run: its result is the layer's output re-laid as (token, feature) rows, and its six
  arguments end as they began. The one host line after the kernel is a reshape of the output array.
-/
import proofs.«117410_j30734785970328_2_alg».proof.Proof.KernelValue
import Idealize.ShloMosaic.Lib.StableHlo.Run

noncomputable section

namespace Cert.KernelIdeal.Layer

open Cert.KernelIdeal Cert.KernelIdeal.Gen Cert.KernelIdeal.Blocks
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The layer's output over the arguments themselves: tokens grouped by expert, the rest as passed. -/
theorem result_eq (c : Dev nD) :
    result m c = Cert.FFN.outArr
      (shapeCast S8x2048x2048 (m ((c : Thread nD τ).loc main_arg0)) shapeCasts_S16384x2048_S8x2048x2048)
      (m ((c : Thread nD τ).loc main_arg1)) (m ((c : Thread nD τ).loc main_arg2))
      (m ((c : Thread nD τ).loc main_arg3)) (m ((c : Thread nD τ).loc main_arg4)) := by
  show Cert.FFN.outArr (V m c main_v0) (V m c main_arg1) _ (V m c main_arg3) _ = _
  rw [found_tokens, V_main_arg1, V_main_arg3]

/-- After the kernel the result buffer holds the output array, reshaped. -/
theorem tail_eq (c : Dev nD) :
    Pipeline.afterTail₀ cfgs (dats m) 0 (V0 m) [hostOps1] c main_v4
      = shapeCast S16384x2048 (result m c) shapeCasts_S8x2048x2048_S16384x2048 := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v3)
      = result m c :=
    (Pipeline.withArrays_arr spec0 launch0.win.arr_inj c _ _ 5).trans (final m c)
  rw [e]
  rfl

/-- The run, read. -/
theorem run : θ_run defs (onTc (τ := τ) (main (F := Ideal))) ⟨m, fun _ => 0, ρ⟩ fun r => ∀ c : Dev nD,
      r.2.mem ((c.tc : Thread nD τ).loc main_v4) = shapeCast S16384x2048 (result m c) shapeCasts_S8x2048x2048_S16384x2048
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v4 (Pipeline.mem_restRefs_of main_v4 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Layer

end
-- ==== Proof.lean ====
/-
  An expert feed-forward layer computed two ways — a fused kernel that walks the hidden axis in 16 tiles,
  keeping a running total between grid steps, and a plain reference that forms both matrix products whole —
  gives the same result over the extended reals:

      y[e,t,d] = (∑ h < 8192, gelu (∑ k < 2048, x[e,t,k] · w1[e,h,k] + b1[e,h]) · w2[e,d,h]) + b2[e,d]

  The two sides differ only in how the hidden sum is grouped (sixteen partial sums added in order from zero,
  against one sum) and in how the cube inside the activation is associated; both are instances of the
  commutativity and associativity of + and · on the extended reals, which hold at the infinities too, so the
  precondition is never opened. The roundings to bf16 on the way into the kernel's matrix products are the
  identity here, and the kernel's and the host's tanh are one function.

  `Spec` states the function; `RefValue` reads the reference as it; `KernelPieces`, `KernelPayload`,
  `KernelBlocks`, `KernelValue` and `KernelRun` read the kernel's run as it; the claims are assembled below.
-/
import proofs.«117410_j30734785970328_2_alg».proof.Defs
import proofs.«117410_j30734785970328_2_alg».proof.Proof.Gen.Kernel
import proofs.«117410_j30734785970328_2_alg».proof.Proof.Gen.Kernel.Frame
import proofs.«117410_j30734785970328_2_alg».proof.Proof.Gen.KernelIdeal
import proofs.«117410_j30734785970328_2_alg».proof.Proof.Gen.KernelIdeal.Frame
import proofs.«117410_j30734785970328_2_alg».proof.Proof.Gen.ReferenceIdeal
import proofs.«117410_j30734785970328_2_alg».proof.Proof.Gen.ReferenceIdeal.Run
import proofs.«117410_j30734785970328_2_alg».proof.Proof.Gen.ReferenceIdeal.Read
import proofs.«117410_j30734785970328_2_alg».proof.Proof.Gen.Pre_finite_inputs
import proofs.«117410_j30734785970328_2_alg».proof.Proof.RefValue
import proofs.«117410_j30734785970328_2_alg».proof.Proof.KernelRun
import Idealize.ShloMosaic.Adequacy
import Idealize.ShloMosaic.Init

noncomputable section

namespace Cert.Proof

open Idealize.ShloMosaic Idealize.ShloMosaic.TcCoe Idealize.SL.Sem

/-- The kernel's program runs and leaves its arguments alone. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- Both programs end at the layer's output of arguments that agree, re-laid the same way. -/
theorem algebraic : Cert.algebraic_KernelIdeal_ReferenceIdeal := by
  intro m ρ m' ρ' _ hagree
  refine ⟨fun c => shapeCast Cert.KernelIdeal.S16384x2048 (Cert.KernelIdeal.Layer.result m c)
    Cert.KernelIdeal.Facts₀.shapeCasts_S8x2048x2048_S16384x2048, Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v22_eq (F := Ideal) _ _ _ _ _).trans ?_
  unfold Cert.ReferenceIdeal.Read.val_main_v22
  show shapeCast _ _ _ = shapeCast Cert.KernelIdeal.S16384x2048 (Cert.KernelIdeal.Layer.result m c) _
  rw [Cert.ReferenceIdeal.RefValue.out_eq, Cert.KernelIdeal.Layer.result_eq,
    (hagree c).1, (hagree c).2.1, (hagree c).2.2.1, (hagree c).2.2.2.1, (hagree c).2.2.2.2.1]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
